-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v24) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x32x128 : Shape := ⟨3, ![1024, 32, 128]⟩
abbrev S_ : Shape := ⟨0, ![]⟩

class Facts : Prop where
  bcast_S_S1024x32x128 : S_.BroadcastsInDim S1024x32x128 (![] : Fin 0 → Fin S1024x32x128.rank)
  reducesTo_S1024x32x128_S_d0_1_2 : S1024x32x128.ReducesTo [0, 1, 2] S_
  h_S_ : 0 < S_.numel

variable [Facts]

def fn {F : FTy → Type} [FloatOps F] (main_arg0 : FVec F S1024x32x128 .f32) (main_arg1 : FVec F S1024x32x128 .f32) : IVec S_ 1 :=
  let main_v0 : FVec F S1024x32x128 .f32 := Host.absf main_arg0
  let main_cst : FVec F S_ .f32 := constant S_ .f32 0x7F800000#32
  let main_v1 : FVec F S1024x32x128 .f32 := broadcastInDim S1024x32x128 ![] bcast_S_S1024x32x128 main_cst
  let main_v2 : IVec S1024x32x128 1 := cmpf .olt main_v0 main_v1
  let main_c : IVec S_ 1 := constantI S_ 1 1#1
  let main_v3 : IVec S_ 1 := (fun x v => Host.reduce IntOp.andi x v reducesTo_S1024x32x128_S_d0_1_2 h_S_) main_v2 main_c
  let main_v4 : FVec F S1024x32x128 .f32 := Host.absf main_arg1
  let main_cst_0 : FVec F S_ .f32 := constant S_ .f32 0x7F800000#32
  let main_v5 : FVec F S1024x32x128 .f32 := broadcastInDim S1024x32x128 ![] bcast_S_S1024x32x128 main_cst_0
  let main_v6 : IVec S1024x32x128 1 := cmpf .olt main_v4 main_v5
  let main_c_1 : IVec S_ 1 := constantI S_ 1 1#1
  let main_v7 : IVec S_ 1 := (fun x v => Host.reduce IntOp.andi x v reducesTo_S1024x32x128_S_d0_1_2 h_S_) main_v6 main_c_1
  let main_v8 : IVec S_ 1 := andi main_v3 main_v7
  main_v8
-- ==== Kernel.lean ====
abbrev S1024x32x128 : Shape := ⟨3, ![1024, 32, 128]⟩
abbrev S32x1x128 : Shape := ⟨3, ![32, 1, 128]⟩
abbrev S1024x8x128 : Shape := ⟨3, ![1024, 8, 128]⟩
abbrev S8x1x128 : Shape := ⟨3, ![8, 1, 128]⟩
abbrev S1024x1x128 : Shape := ⟨3, ![1024, 1, 128]⟩
abbrev S1024x128 : Shape := ⟨2, ![1024, 128]⟩
abbrev S1024x1024 : Shape := ⟨2, ![1024, 1024]⟩
abbrev S1024 : Shape := ⟨1, ![1024]⟩
abbrev S1024x1 : Shape := ⟨2, ![1024, 1]⟩
abbrev S1024x1022 : Shape := ⟨2, ![1024, 1022]⟩
abbrev S1 : Shape := ⟨1, ![1]⟩
abbrev S1x1 : Shape := ⟨2, ![1, 1]⟩
abbrev S1x128 : Shape := ⟨2, ![1, 128]⟩
abbrev S128 : Shape := ⟨1, ![128]⟩
abbrev S1x1x128 : Shape := ⟨3, ![1, 1, 128]⟩
abbrev S32x1x1 : Shape := ⟨3, ![32, 1, 1]⟩
abbrev S32 : Shape := ⟨1, ![32]⟩

abbrev nBuf : Space → Nat
  | .hbm => 5
  | .vmem => 6
  | .smem => 0
  | _ => 0

abbrev bufTy : (tb : Table) → Fin (tcTables nBuf tb) → BufTy
  | .hbm, ⟨0, _⟩ => ⟨S1024x32x128, .f32⟩
  | .hbm, ⟨1, _⟩ => ⟨S1024x32x128, .f32⟩
  | .hbm, ⟨2, _⟩ => ⟨S32x1x128, .f32⟩
  | .hbm, ⟨3, _⟩ => ⟨S32x1x1, .f32⟩
  | .hbm, ⟨4, _⟩ => ⟨S32, .f32⟩
  | .local _ .vmem, ⟨0, _⟩ => ⟨S1024x8x128, .f32⟩
  | .local _ .vmem, ⟨1, _⟩ => ⟨S1024x8x128, .f32⟩
  | .local _ .vmem, ⟨2, _⟩ => ⟨S1024x8x128, .f32⟩
  | .local _ .vmem, ⟨3, _⟩ => ⟨S1024x8x128, .f32⟩
  | .local _ .vmem, ⟨4, _⟩ => ⟨S8x1x128, .f32⟩
  | .local _ .vmem, ⟨5, _⟩ => ⟨S8x1x128, .f32⟩
  | _, _ => ⟨S1024x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S1024x8x128_S1024x1x128_0_0_0 : ∀ a, (![0, 0, 0] : Fin 3 → Nat) a + S1024x1x128.size a ≤ S1024x8x128.size a
  h_S1024x1x128 : 0 < S1024x1x128.numel
  shapeCasts_S1024x1x128_S1024x128 : S1024x1x128.ShapeCasts S1024x128
  bitsLt_bf16_f32 : FTy.bits .bf16 < FTy.bits .f32
  reduces_S1024x1024_S1024 : S1024x1024.Reduces [1] S1024
  shapeCasts_S1024_S1024x1 : S1024.ShapeCasts S1024x1
  broadcasts_S1024x1_S1024x1024 : S1024x1.Broadcasts S1024x1024
  slices_S1024x1024_o0_0_S1024x1022 : S1024x1024.Slices ![0, 0] S1024x1022
  slices_S1024x1024_o0_1_S1024x1022 : S1024x1024.Slices ![0, 1] S1024x1022
  slices_S1024x1024_o0_2_S1024x1022 : S1024x1024.Slices ![0, 2] S1024x1022
  reduces_S1024x1022_S1024 : S1024x1022.Reduces [1] S1024
  reduces_S1024x1_S1 : S1024x1.Reduces [0] S1
  shapeCasts_S1_S1x1 : S1.ShapeCasts S1x1
  shapeCasts_S1x1_S1x1 : S1x1.ShapeCasts S1x1
  broadcasts_S1x1_S1x128 : S1x1.Broadcasts S1x128
  shapeCasts_S1x128_S128 : S1x128.ShapeCasts S128
  inb_S8x1x128_S1x1x128_0_0_0 : ∀ a, (![0, 0, 0] : Fin 3 → Nat) a + S1x1x128.size a ≤ S8x1x128.size a
  h_S1x1x128 : 0 < S1x1x128.numel
  shapeCasts_S1x1x128_S128 : S1x1x128.ShapeCasts S128
  shapeCasts_S128_S1x1x128 : S128.ShapeCasts S1x1x128
  inb_S1024x8x128_S1024x1x128_0_1_0 : ∀ a, (![0, 1, 0] : Fin 3 → Nat) a + S1024x1x128.size a ≤ S1024x8x128.size a
  inb_S8x1x128_S1x1x128_1_0_0 : ∀ a, (![1, 0, 0] : Fin 3 → Nat) a + S1x1x128.size a ≤ S8x1x128.size a
  inb_S1024x8x128_S1024x1x128_0_2_0 : ∀ a, (![0, 2, 0] : Fin 3 → Nat) a + S1024x1x128.size a ≤ S1024x8x128.size a
  inb_S8x1x128_S1x1x128_2_0_0 : ∀ a, (![2, 0, 0] : Fin 3 → Nat) a + S1x1x128.size a ≤ S8x1x128.size a
  inb_S1024x8x128_S1024x1x128_0_3_0 : ∀ a, (![0, 3, 0] : Fin 3 → Nat) a + S1024x1x128.size a ≤ S1024x8x128.size a
  inb_S8x1x128_S1x1x128_3_0_0 : ∀ a, (![3, 0, 0] : Fin 3 → Nat) a + S1x1x128.size a ≤ S8x1x128.size a
  inb_S1024x8x128_S1024x1x128_0_4_0 : ∀ a, (![0, 4, 0] : Fin 3 → Nat) a + S1024x1x128.size a ≤ S1024x8x128.size a
  inb_S8x1x128_S1x1x128_4_0_0 : ∀ a, (![4, 0, 0] : Fin 3 → Nat) a + S1x1x128.size a ≤ S8x1x128.size a
  inb_S1024x8x128_S1024x1x128_0_5_0 : ∀ a, (![0, 5, 0] : Fin 3 → Nat) a + S1024x1x128.size a ≤ S1024x8x128.size a
  inb_S8x1x128_S1x1x128_5_0_0 : ∀ a, (![5, 0, 0] : Fin 3 → Nat) a + S1x1x128.size a ≤ S8x1x128.size a
  inb_S1024x8x128_S1024x1x128_0_6_0 : ∀ a, (![0, 6, 0] : Fin 3 → Nat) a + S1024x1x128.size a ≤ S1024x8x128.size a
  inb_S8x1x128_S1x1x128_6_0_0 : ∀ a, (![6, 0, 0] : Fin 3 → Nat) a + S1x1x128.size a ≤ S8x1x128.size a
  inb_S1024x8x128_S1024x1x128_0_7_0 : ∀ a, (![0, 7, 0] : Fin 3 → Nat) a + S1024x1x128.size a ≤ S1024x8x128.size a
  inb_S8x1x128_S1x1x128_7_0_0 : ∀ a, (![7, 0, 0] : Fin 3 → Nat) a + S1x1x128.size a ≤ S8x1x128.size a
  slices_S32x1x128_S32x1x1_0_0_0 : S32x1x128.Slices ![0, 0, 0] S32x1x1
  shapeCasts_S32x1x1_S32 : S32x1x1.ShapeCasts S32
  dot_S1024x128_S1024x128_S1024x1024_1_1_0_0_n_n_wf : DotDims.WF S1024x128 S1024x128 S1024x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x8x128.size a ≤ S1024x32x128.size a
  hwx0_0 : ∀ i : grid0.Coords, EltTy.bits .f32 = 32 ∨ (Rect.block (s := S1024x32x128) S1024x8x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x8x128.size a ≤ S1024x32x128.size a
  hwx0_1 : ∀ i : grid0.Coords, EltTy.bits .f32 = 32 ∨ (Rect.block (s := S1024x32x128) S1024x8x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x1x128.size a ≤ S32x1x128.size a
  hwx0_2 : ∀ i : grid0.Coords, EltTy.bits .f32 = 32 ∨ (Rect.block (s := S32x1x128) S8x1x128.size (cc0_transform_2 i) (hinb0_2 i)).WholeWords (EltTy.packing .f32)

variable [Facts₀]

def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf

abbrev win0_0 : Pipeline.Window sig grid0 :=
  Pipeline.Window.ofSpec (Memref.whole main_arg0) S1024x8x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x8x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8x1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x32x128 : Shape := ⟨3, ![1024, 32, 128]⟩
abbrev S32x1024x128 : Shape := ⟨3, ![32, 1024, 128]⟩
abbrev S32x1024x1024 : Shape := ⟨3, ![32, 1024, 1024]⟩
abbrev S_ : Shape := ⟨0, ![]⟩
abbrev S32x1024 : Shape := ⟨2, ![32, 1024]⟩
abbrev S32x1024x1 : Shape := ⟨3, ![32, 1024, 1]⟩
abbrev S32x1024x1022 : Shape := ⟨3, ![32, 1024, 1022]⟩
abbrev S32 : Shape := ⟨1, ![32]⟩

abbrev nBuf : Space → Nat
  | .hbm => 34
  | .vmem => 0
  | .smem => 0
  | _ => 0

abbrev bufTy : (tb : Table) → Fin (tcTables nBuf tb) → BufTy
  | .hbm, ⟨0, _⟩ => ⟨S1024x32x128, .f32⟩
  | .hbm, ⟨1, _⟩ => ⟨S1024x32x128, .f32⟩
  | .hbm, ⟨2, _⟩ => ⟨S32x1024x128, .f32⟩
  | .hbm, ⟨3, _⟩ => ⟨S32x1024x128, .f32⟩
  | .hbm, ⟨4, _⟩ => ⟨S32x1024x1024, .f32⟩
  | .hbm, ⟨5, _⟩ => ⟨S_, .f32⟩
  | .hbm, ⟨6, _⟩ => ⟨S32x1024, .f32⟩
  | .hbm, ⟨7, _⟩ => ⟨S_, .f32⟩
  | .hbm, ⟨8, _⟩ => ⟨S32x1024, .f32⟩
  | .hbm, ⟨9, _⟩ => ⟨S32x1024, .f32⟩
  | .hbm, ⟨10, _⟩ => ⟨S32x1024x1, .f32⟩
  | .hbm, ⟨11, _⟩ => ⟨S32x1024x1024, .f32⟩
  | .hbm, ⟨12, _⟩ => ⟨S32x1024x1024, .f32⟩
  | .hbm, ⟨13, _⟩ => ⟨S32x1024x1024, .f32⟩
  | .hbm, ⟨14, _⟩ => ⟨S_, .f32⟩
  | .hbm, ⟨15, _⟩ => ⟨S32x1024, .f32⟩
  | .hbm, ⟨16, _⟩ => ⟨S32x1024x1, .f32⟩
  | .hbm, ⟨17, _⟩ => ⟨S32x1024x1024, .f32⟩
  | .hbm, ⟨18, _⟩ => ⟨S32x1024x1024, .f32⟩
  | .hbm, ⟨19, _⟩ => ⟨S32x1024x1022, .f32⟩
  | .hbm, ⟨20, _⟩ => ⟨S32x1024x1022, .f32⟩
  | .hbm, ⟨21, _⟩ => ⟨S32x1024x1022, .f32⟩
  | .hbm, ⟨22, _⟩ => ⟨S32x1024x1022, .f32⟩
  | .hbm, ⟨23, _⟩ => ⟨S32x1024x1022, .f32⟩
  | .hbm, ⟨24, _⟩ => ⟨S_, .f32⟩
  | .hbm, ⟨25, _⟩ => ⟨S32x1024x1022, .f32⟩
  | .hbm, ⟨26, _⟩ => ⟨S32x1024x1022, .f32⟩
  | .hbm, ⟨27, _⟩ => ⟨S_, .f32⟩
  | .hbm, ⟨28, _⟩ => ⟨S32x1024, .f32⟩
  | .hbm, ⟨29, _⟩ => ⟨S_, .f32⟩
  | .hbm, ⟨30, _⟩ => ⟨S32, .f32⟩
  | .hbm, ⟨31, _⟩ => ⟨S_, .f32⟩
  | .hbm, ⟨32, _⟩ => ⟨S32, .f32⟩
  | .hbm, ⟨33, _⟩ => ⟨S32, .f32⟩
  | _, _ => ⟨S1024x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_2 : Ref sig .tc := ⟨.hbm, 24, rfl⟩
abbrev main_v19 : Ref sig .tc := ⟨.hbm, 25, rfl⟩
abbrev main_v20 : Ref sig .tc := ⟨.hbm, 26, rfl⟩
abbrev main_cst_3 : Ref sig .tc := ⟨.hbm, 27, rfl⟩
abbrev main_v21 : Ref sig .tc := ⟨.hbm, 28, rfl⟩
abbrev main_cst_4 : Ref sig .tc := ⟨.hbm, 29, rfl⟩
abbrev main_v22 : Ref sig .tc := ⟨.hbm, 30, rfl⟩
abbrev main_cst_5 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]

class Facts₀ : Prop where
  transposes_S1024x32x128_S32x1024x128_1_0_2 : S1024x32x128.Transposes [1, 0, 2] S32x1024x128
  reducesTo_S32x1024x1024_S32x1024_d2 : S32x1024x1024.ReducesTo [2] S32x1024
  h_S_ : 0 < S_.numel
  bcast_S_S32x1024 : S_.BroadcastsInDim S32x1024 (![] : Fin 0 → Fin S32x1024.rank)
  bcast_S32x1024_S32x1024x1_0_1 : S32x1024.BroadcastsInDim S32x1024x1 (![0, 1] : Fin 2 → Fin S32x1024x1.rank)
  bcast_S32x1024x1_S32x1024x1024_0_1_2 : S32x1024x1.BroadcastsInDim S32x1024x1024 (![0, 1, 2] : Fin 3 → Fin S32x1024x1024.rank)
  slices_S32x1024x1024_S32x1024x1022_0_0_0 : S32x1024x1024.Slices ![0, 0, 0] S32x1024x1022
  slices_S32x1024x1024_S32x1024x1022_0_0_1 : S32x1024x1024.Slices ![0, 0, 1] S32x1024x1022
  slices_S32x1024x1024_S32x1024x1022_0_0_2 : S32x1024x1024.Slices ![0, 0, 2] S32x1024x1022
  bcast_S_S32x1024x1022 : S_.BroadcastsInDim S32x1024x1022 (![] : Fin 0 → Fin S32x1024x1022.rank)
  reducesTo_S32x1024x1022_S32x1024_d2 : S32x1024x1022.ReducesTo [2] S32x1024
  reducesTo_S32x1024_S32_d1 : S32x1024.ReducesTo [1] S32
  bcast_S_S32 : S_.BroadcastsInDim S32 (![] : Fin 0 → Fin S32.rank)
  dot_S32x1024x128_S32x1024x128_S32x1024x1024_2_2_1_1_0_0_wf : DotDims.WF S32x1024x128 S32x1024x128 S32x1024x1024 [2] [2] [1] [1] [0] [0]

variable [Facts₀]

def dot_S32x1024x128_S32x1024x128_S32x1024x1024_2_2_1_1_0_0 : DotDims S32x1024x128 S32x1024x128 S32x1024x1024 where
  lhsContracting := [2]
  rhsContracting := [2]
  lhsNonContracting := [1]
  rhsNonContracting := [1]
  lhsBatch := [0]
  rhsBatch := [0]
  wf := dot_S32x1024x128_S32x1024x128_S32x1024x1024_2_2_1_1_0_0_wf

class Facts : Prop extends Facts₀ where

variable [Facts]
-- ==== Proof.LibFinite.lean ====
/-
  Finite extended reals. An extended real is FINITE when it is a real number. Sums, products, maxima and quotients
  by a non-zero divisor of finite values are finite, and on finite values multiplication distributes over addition
  (on the extended reals it does not in general: `⊤ * (1 + -1) = 0` but `⊤ * 1 + ⊤ * -1 = ⊥`). The last section
  states the two laws a "dense combine" step needs: a sum of products against a sum of two matrices splits into two
  sums of products, and the regrouping of six summands that carries a combined bias to the two summands it belongs to.
-/
import Idealize.ShloMosaic.PureOps.Ideal.Laws

noncomputable section

namespace Cert.LibFinite

open Idealize.ShloMosaic

/-- `x` is a real number (neither `⊤` nor `⊥`). -/
def IsFin (x : EReal) : Prop := ∃ r : ℝ, x = (r : EReal)

namespace IsFin

theorem coe (r : ℝ) : IsFin (r : EReal) := ⟨r, rfl⟩
theorem zero : IsFin (0 : EReal) := ⟨0, rfl⟩
theorem one : IsFin (1 : EReal) := ⟨1, rfl⟩

theorem add {x y : EReal} (hx : IsFin x) (hy : IsFin y) : IsFin (x + y) := by
  obtain ⟨a, rfl⟩ := hx; obtain ⟨b, rfl⟩ := hy
  exact ⟨a + b, (EReal.coe_add a b).symm⟩

theorem mul {x y : EReal} (hx : IsFin x) (hy : IsFin y) : IsFin (x * y) := by
  obtain ⟨a, rfl⟩ := hx; obtain ⟨b, rfl⟩ := hy
  exact ⟨a * b, (EReal.coe_mul a b).symm⟩

theorem max {x y : EReal} (hx : IsFin x) (hy : IsFin y) : IsFin (max x y) := by
  obtain ⟨a, rfl⟩ := hx; obtain ⟨b, rfl⟩ := hy
  rcases le_total a b with h | h
  · rw [max_eq_right (EReal.coe_le_coe_iff.mpr h)]; exact ⟨b, rfl⟩
  · rw [max_eq_left (EReal.coe_le_coe_iff.mpr h)]; exact ⟨a, rfl⟩

theorem sum {ι : Type} (s : Finset ι) (f : ι → EReal) (h : ∀ i ∈ s, IsFin (f i)) : IsFin (∑ i ∈ s, f i) :=
  Finset.sum_induction f IsFin (fun _ _ => add) zero h

/-- The quotient of the ideal instance by a finite non-zero divisor. -/
theorem div {x y : EReal} (hx : IsFin x) (hy : IsFin y) (h0 : y ≠ 0) : IsFin (Ideal.div x y) := by
  obtain ⟨a, rfl⟩ := hx; obtain ⟨b, rfl⟩ := hy
  unfold Ideal.div
  rw [if_neg h0, ← EReal.coe_inv, ← EReal.coe_mul]
  exact ⟨_, rfl⟩

/-- A maximum against one is not zero (the divisor of a mean over a count that may be zero). -/
theorem max_one_ne_zero (x : EReal) : Max.max x 1 ≠ 0 :=
  ne_of_gt (lt_of_lt_of_le zero_lt_one (le_max_right x 1))

end IsFin

/-! ## The laws on finite values -/

/-- On finite values multiplication distributes over addition. -/
theorem mul_add_of_fin {x a b : EReal} (hx : IsFin x) (ha : IsFin a) (hb : IsFin b) : x * (a + b) = x * a + x * b := by
  obtain ⟨x, rfl⟩ := hx; obtain ⟨a, rfl⟩ := ha; obtain ⟨b, rfl⟩ := hb
  rw [← EReal.coe_add, ← EReal.coe_mul, ← EReal.coe_mul, ← EReal.coe_mul, ← EReal.coe_add, mul_add]

/-- A sum of products against a sum of two families splits, all factors finite: row `x` against the column of
    `A + B` is row `x` against the column of `A` plus row `x` against the column of `B`. -/
theorem sum_mul_add {ι : Type} [Fintype ι] (x a b : ι → EReal) (hx : ∀ k, IsFin (x k)) (ha : ∀ k, IsFin (a k))
    (hb : ∀ k, IsFin (b k)) : ∑ k, x k * (a k + b k) = ∑ k, x k * a k + ∑ k, x k * b k := by
  rw [← Finset.sum_add_distrib]
  exact Finset.sum_congr rfl fun k _ => mul_add_of_fin (hx k) (ha k) (hb k)

/-- Six summands regrouped: the two aggregated terms `P`, `Q`, the two self terms `X₀`, `X₃` and the two biases, summed
    as "(P + Q) + (X₀ + X₃) + (b₀ + b₃)", are the sum of the two relations' own "(P + b₀) + X₀" and "(Q + b₃) + X₃".
    Addition of extended reals is commutative and associative everywhere, so no finiteness is needed. -/
theorem combine_regroup (P Q X₀ X₃ b₀ b₃ : EReal) :
    P + Q + (X₀ + X₃) + (b₀ + b₃) = (P + b₀ + X₀) + (Q + b₃ + X₃) := by
  abel

end Cert.LibFinite

end
-- ==== Proof.Pooled.lean ====
/-
  Pooled soft-max rows, as functions on extended reals, and the one law that joins the two programs.

  For a row of scores `σ k` (k < 1024): its maximum `M`, the exponentials `e k = exp (σ k - M)`, their sum `D`, and
  the three-term window sums `e j + e (j+1) + e (j+2)` (j < 1022). One program takes the largest window sum and divides
  it once by `3 · D`; the other divides every exponential by `D`, adds three neighbours, divides by `3` and only
  then takes the largest. When every score is a real number, `M` is real, every `e k` is a positive real and `D` is a
  positive real, so dividing by `3 · D` is the product with a positive real: it is monotone, hence commutes with the
  maximum, and over the reals `(a + b + c) / (3 · D) = (a / D + b / D + c / D) / 3`. A batch's result is the sum of
  its 1024 row values divided by the row count.
-/
import Idealize.ShloMosaic.PureOps.Ideal.Laws
import proofs.«160407_j87101936763000_2_alg».proof.Proof.LibFinite

noncomputable section

namespace Cert.Pooled

open Idealize.ShloMosaic Cert.LibFinite

/-! ## The three float words the law looks at -/

/-- The word of `-∞` denotes the bottom of the extended reals. -/
theorem negInf_eq : Ideal.ofBits .f32 0xFF800000#32 = (⊥ : EReal) := by
  simp [Ideal.ofBits, Ideal.ieee]

/-- The word of `3.0` denotes the real `3`. -/
theorem three_eq : Ideal.ofBits .f32 0x40400000#32 = ((3 : ℝ) : EReal) := by
  simp [Ideal.ofBits, Ideal.ieee, -EReal.coe_mul]; norm_num

/-! ## Folds of `max` and sums of reals -/

/-- A finite sum of reals, each read as an extended real, is the real sum read as one. -/
theorem coe_sum {ι : Type} (s : Finset ι) (f : ι → ℝ) : ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-- A monotone map commutes with a fold of `max`. -/
theorem map_fold_max {ι : Type} (g : EReal → EReal) (hg : Monotone g) (s : Finset ι) (b : EReal) (f : ι → EReal) :
    g (s.fold max b f) = s.fold max (g b) (fun i => g (f i)) := by
  classical
  induction s using Finset.induction_on with
  | empty => simp
  | insert a s ha ih => rw [Finset.fold_insert ha, Finset.fold_insert ha, hg.map_max, ih]

/-- The largest of finitely many reals, taken from `⊥` over a non-empty set, is a real. -/
theorem fold_max_bot_fin {ι : Type} (s : Finset ι) (f : ι → EReal) (hs : s.Nonempty) (hf : ∀ i ∈ s, IsFin (f i)) :
    IsFin (s.fold max ⊥ f) := by
  classical
  induction s using Finset.induction_on with
  | empty => exact absurd hs Finset.not_nonempty_empty
  | insert a s ha ih =>
    rw [Finset.fold_insert ha]
    rcases s.eq_empty_or_nonempty with rfl | hne
    · rw [Finset.fold_empty, max_eq_left bot_le]; exact hf a (Finset.mem_insert_self _ _)
    · exact IsFin.max (hf a (Finset.mem_insert_self _ _)) (ih hne fun i hi => hf i (Finset.mem_insert_of_mem hi))

/-! ## One row -/

/-- The three columns of window `j`: `j`, `1 + j`, `2 + j`. -/
def col0 (j : Fin 1022) : Fin 1024 := ⟨j.val, by have := j.isLt; omega⟩
def col1 (j : Fin 1022) : Fin 1024 := ⟨1 + j.val, by have := j.isLt; omega⟩
def col2 (j : Fin 1022) : Fin 1024 := ⟨2 + j.val, by have := j.isLt; omega⟩

/-- The row's largest score, from `-∞`. -/
def rowMax (σ : Fin 1024 → EReal) : EReal :=
  (Finset.univ : Finset (Fin 1024)).fold max (Ideal.ofBits .f32 0xFF800000#32) σ

/-- The exponential of a score less the row's largest. -/
def expo (σ : Fin 1024 → EReal) (k : Fin 1024) : EReal := Ideal.exp (σ k - rowMax σ)

/-- The sum of the row's exponentials. -/
def denom (σ : Fin 1024 → EReal) : EReal := ∑ k : Fin 1024, expo σ k

/-- The sum of three neighbouring exponentials. -/
def pool (σ : Fin 1024 → EReal) (j : Fin 1022) : EReal := expo σ (col0 j) + expo σ (col1 j) + expo σ (col2 j)

/-- The largest window sum, divided once by three times the sum of the exponentials. -/
def rowOnce (σ : Fin 1024 → EReal) : EReal :=
  Ideal.div ((Finset.univ : Finset (Fin 1022)).fold max (Ideal.ofBits .f32 0xFF800000#32) (pool σ))
    (Ideal.ofBits .f32 0x40400000#32 * denom σ)

/-- The largest of the window averages of the normalised exponentials. -/
def rowEach (σ : Fin 1024 → EReal) : EReal :=
  (Finset.univ : Finset (Fin 1022)).fold max (Ideal.ofBits .f32 0xFF800000#32) fun j =>
    Ideal.div (Ideal.div (expo σ (col0 j)) (denom σ) + Ideal.div (expo σ (col1 j)) (denom σ)
      + Ideal.div (expo σ (col2 j)) (denom σ)) (Ideal.ofBits .f32 0x40400000#32)

/-- Over the reals, with a non-zero `D`: the average of three quotients by `D` is the sum's quotient by `3 · D`. -/
theorem window_div (x y z D : ℝ) (hD : D ≠ 0) :
    Ideal.div (Ideal.div (x : EReal) D + Ideal.div (y : EReal) D + Ideal.div (z : EReal) D) ((3 : ℝ) : EReal)
      = Ideal.div ((x : EReal) + y + z) (((3 : ℝ) : EReal) * D) := by
  have h3 : (3 : ℝ) ≠ 0 := by norm_num
  rw [← EReal.coe_mul, Ideal.div_coe hD, Ideal.div_coe hD, Ideal.div_coe hD, Ideal.div_coe h3,
    Ideal.div_coe (mul_ne_zero h3 hD)]
  simp only [← EReal.coe_mul, ← EReal.coe_add]
  rw [EReal.coe_eq_coe_iff]
  field_simp

/-- THE LAW: on a row of real scores, dividing the largest window sum once is dividing each exponential first. -/
theorem rowOnce_eq_rowEach (σ : Fin 1024 → EReal) (hσ : ∀ k, IsFin (σ k)) : rowOnce σ = rowEach σ := by
  -- the largest score is a real
  have hM : IsFin (rowMax σ) := by
    unfold rowMax; rw [negInf_eq]
    exact fold_max_bot_fin _ _ ⟨0, Finset.mem_univ _⟩ fun k _ => hσ k
  obtain ⟨M, hM⟩ := hM
  choose r hr using hσ
  -- each exponential is a positive real
  have he : ∀ k, expo σ k = ((Real.exp (r k - M) : ℝ) : EReal) := fun k => by
    unfold expo; rw [hM, hr k, ← EReal.coe_sub, Ideal.exp_coe]
  -- their sum is a positive real
  have hD : denom σ = ((∑ k : Fin 1024, Real.exp (r k - M) : ℝ) : EReal) := by
    unfold denom; rw [← coe_sum]; exact Finset.sum_congr rfl fun k _ => he k
  have hDpos : 0 < ∑ k : Fin 1024, Real.exp (r k - M) :=
    Finset.sum_pos (fun k _ => Real.exp_pos _) ⟨0, Finset.mem_univ _⟩
  set D : ℝ := ∑ k : Fin 1024, Real.exp (r k - M) with hDdef
  have h3D : (3 : ℝ) * D ≠ 0 := mul_ne_zero (by norm_num) hDpos.ne'
  have hc : 0 < 1 / ((3 : ℝ) * D) := by positivity
  -- dividing by `3 · D` is the product with a positive real: monotone, and it keeps `⊥`
  have hg : ∀ x : EReal, Ideal.div x (((3 : ℝ) : EReal) * D) = x * ((1 / ((3 : ℝ) * D) : ℝ) : EReal) := fun x => by
    rw [← EReal.coe_mul, Ideal.div_coe h3D]
  have hmono : Monotone fun x : EReal => Ideal.div x (((3 : ℝ) : EReal) * D) := fun a b hab => by
    show Ideal.div a _ ≤ Ideal.div b _
    rw [hg, hg]
    exact mul_le_mul_of_nonneg_right hab (EReal.coe_nonneg.mpr hc.le)
  have hbot : Ideal.div (⊥ : EReal) (((3 : ℝ) : EReal) * D) = ⊥ := by
    rw [hg]; exact EReal.bot_mul_coe_of_pos hc
  unfold rowOnce rowEach
  rw [three_eq, negInf_eq, hD, map_fold_max _ hmono, hbot]
  refine Finset.fold_congr fun j _ => ?_
  unfold pool
  rw [he, he, he]
  exact (window_div _ _ _ D hDpos.ne').symm

/-! ## One batch -/

/-- The score of row `m` against column `k`: the sum over the 128 features of the products. -/
def score (X Y : Fin 1024 → Fin 128 → EReal) (m k : Fin 1024) : EReal := ∑ d : Fin 128, Y m d * X k d

/-- A batch's result with the division done once per row. -/
def batchOnce (X Y : Fin 1024 → Fin 128 → EReal) : EReal :=
  Ideal.div (∑ m : Fin 1024, rowOnce (score X Y m)) (Ideal.ofBits .f32 0x44800000#32)

/-- A batch's result with every exponential divided first. -/
def batchEach (X Y : Fin 1024 → Fin 128 → EReal) : EReal :=
  Ideal.div (∑ m : Fin 1024, rowEach (score X Y m)) (Ideal.ofBits .f32 0x44800000#32)

/-- On real inputs the two are equal: every score is a finite sum of products of reals. -/
theorem batchOnce_eq_batchEach (X Y : Fin 1024 → Fin 128 → EReal) (hX : ∀ m d, IsFin (X m d)) (hY : ∀ m d, IsFin (Y m d)) :
    batchOnce X Y = batchEach X Y := by
  unfold batchOnce batchEach
  refine congrArg (Ideal.div · _) (Finset.sum_congr rfl fun m _ => ?_)
  exact rowOnce_eq_rowEach _ fun k => IsFin.sum _ _ fun d _ => IsFin.mul (hY m d) (hX k d)

end Cert.Pooled

end
-- ==== Proof.FiniteInputs.lean ====
/-
  The precondition read back: every entry of both inputs is a real number.

  The precondition's text is `all (|x| < +∞) ∧ all (|y| < +∞)`, each `all` a reduction by `and` from `true` over every
  axis. Its value being `true` gives `|x i| < +∞` at every index, and an extended real whose absolute value
  `max a (−a)` is below `+∞` is neither `+∞` nor `−∞`.
-/
import proofs.«160407_j87101936763000_2_alg».proof.Pre_finite_inputs
import proofs.«160407_j87101936763000_2_alg».proof.Proof.Gen.Pre_finite_inputs
import proofs.«160407_j87101936763000_2_alg».proof.Proof.LibFinite
import Idealize.ShloMosaic.Lib.ReduceAll
import Idealize.ShloMosaic.Lib.ValueIdx
import Idealize.ShloMosaic.PureOps.Ideal.Laws

noncomputable section

namespace Cert.FiniteInputs

open Idealize.ShloMosaic Cert.LibFinite

/-- The rank-zero shape has one index. -/
instance : Subsingleton Cert.Pre_finite_inputs.S_.Idx := ⟨fun a b => funext fun d => d.elim0⟩

/-- An extended real whose absolute value is below the word of `+∞` is a real. -/
theorem fin_of_abs_lt (x : EReal) (h : Ideal.cmp .olt (max x (-x)) (Ideal.ofBits .f32 0x7F800000#32) = 1#1) : IsFin x := by
  have hinf : Ideal.ofBits .f32 0x7F800000#32 = (⊤ : EReal) := by simp [Ideal.ofBits, Ideal.ieee]
  rw [hinf] at h
  induction x using EReal.rec with
  | bot => simp [Ideal.cmp] at h
  | top => simp [Ideal.cmp] at h
  | coe r => exact ⟨r, rfl⟩

variable [Cert.Pre_finite_inputs.Facts]

/-- THE PRECONDITION gives: every entry of both inputs is a real number. -/
theorem finite_of_pre (a0 a1 : FVec Ideal Cert.Pre_finite_inputs.S1024x32x128 .f32)
    (h : Cert.Pre_finite_inputs.fn (F := Ideal) a0 a1 = fun _ => 1#1) :
    (∀ i, IsFin (a0 i)) ∧ (∀ i, IsFin (a1 i)) := by
  have h0 := congrFun h ValueIdx.ix0
  dsimp only [Cert.Pre_finite_inputs.fn] at h0
  obtain ⟨e0, e1⟩ := IntOp.andi_eq_one.mp h0
  exact ⟨fun i => fin_of_abs_lt _ (Host.reduce_andi_all _ _ _ _ _ e0 i),
    fun i => fin_of_abs_lt _ (Host.reduce_andi_all _ _ _ _ _ e1 i)⟩

end Cert.FiniteInputs

end
-- ==== Proof.LibHostLastAxis.lean ====
/-
  The host's reduce along the last axis of a rank-3 array, read at an index.

  For an `[n, a, b]` array `x` reduced along its last axis by a commutative and associative operation `f`, the result at
  `(p, i)` is the fold of `f` from the initial value over `x (p, i, k)`, `k < b` — a softmax's row maximum over a batch of
  matrices, for instance. Arbitrary extents, any element type. (The library states it over the reduced shape's own
  index `h.lift j k`; here the index is spelt by its three coordinates.)
-/
import Idealize.ShloMosaic.PureOps.Reduce
import Idealize.ShloMosaic.Lib.ValueIdx

noncomputable section

namespace Idealize.ShloMosaic.HostLastAxis

open Idealize.ShloMosaic Idealize.ShloMosaic.ValueIdx

variable {α : Type} {n a b : ℕ} {u : Shape}

/-- The reduce along the last axis at `(p, i)`: the fold over the last coordinate. -/
theorem reduce_apply (f : α → α → α) [Std.Commutative f] [Std.Associative f] (x : (⟨3, ![n, a, b]⟩ : Shape).Idx → α)
    (init : u.Idx → α) (h' : (⟨3, ![n, a, b]⟩ : Shape).ReducesTo [2] ⟨2, ![n, a]⟩)
    (h : (⟨3, ![n, a, b]⟩ : Shape).Reduces [2] ⟨2, ![n, a]⟩) (hu : 0 < u.numel) (p : Fin n) (i : Fin a) :
    Host.reduce f x init h' hu (ix2 p i)
      = (Finset.univ : Finset (Fin b)).fold f (init (Shape.Idx.first hu)) (fun k => x (ix3 p i k)) := by
  refine (Host.reduce_eq_fold_single f x init h' h hu (ix2 p i)).trans ?_
  refine congrArg (Finset.fold f (init (Shape.Idx.first hu)) · (Finset.univ : Finset (Fin b))) (funext fun k => ?_)
  exact congrArg x (funext fun c => Fin.ext (by match c with | ⟨0, _⟩ => rfl | ⟨1, _⟩ => rfl | ⟨2, _⟩ => rfl))

end Idealize.ShloMosaic.HostLastAxis

end
-- ==== Proof.RefAt.lean ====
/-
  The reference read at an index, at the ideal values.

  For batch `n`, with `X m d = x (m, n, d)` and `Y m d = y (m, n, d)`: the reference's scores are `Σ_d Y m d · X k d`,
  its softmax divides every exponential by the row's sum, its pooling averages three neighbours, and the result is the
  mean over the rows of the largest average — the function `Pooled.batchEach X Y`. Each operation is read at an index
  by the generated stage lemmas; the two reductions by `max` are read as folds over the reduced coordinate.
-/
import proofs.«160407_j87101936763000_2_alg».proof.Proof.Gen.ReferenceIdeal.Read
import proofs.«160407_j87101936763000_2_alg».proof.Proof.Pooled
import proofs.«160407_j87101936763000_2_alg».proof.Proof.LibHostLastAxis

noncomputable section

namespace Cert.ReferenceIdeal.RefAt

open Cert.ReferenceIdeal Cert.ReferenceIdeal.Gen Cert.ReferenceIdeal.Read Idealize.ShloMosaic Idealize.ShloMosaic.ValueIdx Cert.Pooled

/-- The two shape facts the reductions by `max` along the last axis are read with. -/
theorem reduces_scores : S32x1024x1024.Reduces [2] S32x1024 := by decide
theorem reduces_windows : S32x1024x1022.Reduces [2] S32x1024 := by decide

variable (x0 x1 : (⟨S1024x32x128, .f32⟩ : BufTy).Contents (Elt Ideal))

/-- Batch `n` of the first argument, as a matrix. -/
def Xn (n : Fin 32) : Fin 1024 → Fin 128 → EReal := fun r d => x0 (ix3 r n d)
/-- Batch `n` of the second argument, as a matrix. -/
def Yn (n : Fin 32) : Fin 1024 → Fin 128 → EReal := fun r d => x1 (ix3 r n d)

/-- The batched product at `(n, m, k)`: row `m` of `y`'s batch against row `k` of `x`'s. -/
theorem v2_at (n : Fin 32) (m k : Fin 1024) :
    val_main_v2 (F := Ideal) x0 x1 (ix3 n m k) = score (Xn x0 n) (Yn x1 n) m k := by
  rw [val_main_v2_apply]
  unfold score
  refine Finset.sum_congr rfl fun d _ => ?_
  rw [val_main_v1_apply, val_main_v0_apply]
  have e1 : idx_main_v1 (lidx_main_v2 (ix3 n m k) d) = ix3 m n d :=
    funext fun a => by match a with | ⟨0, _⟩ => rfl | ⟨1, _⟩ => rfl | ⟨2, _⟩ => rfl
  have e0 : idx_main_v0 (ridx_main_v2 (ix3 n m k) d) = ix3 k n d :=
    funext fun a => by match a with | ⟨0, _⟩ => rfl | ⟨1, _⟩ => rfl | ⟨2, _⟩ => rfl
  rw [e1, e0]
  rfl

/-- The row's largest score. -/
theorem v3_at (n : Fin 32) (m : Fin 1024) :
    val_main_v3 (F := Ideal) x0 x1 (ix2 n m) = rowMax (score (Xn x0 n) (Yn x1 n) m) := by
  unfold val_main_v3
  refine (HostLastAxis.reduce_apply (n := 32) (a := 1024) (b := 1024) (FloatOps.maximumf (F := Ideal) (φ := .f32)) (val_main_v2 (F := Ideal) x0 x1)
    (val_main_cst (F := Ideal)) reducesTo_S32x1024x1024_S32x1024_d2 reduces_scores h_S_ n m).trans ?_
  exact congrArg rowMax (funext fun k => v2_at x0 x1 n m k)

/-- The largest against `-∞` once more is itself. -/
theorem v5_at (n : Fin 32) (m : Fin 1024) :
    val_main_v5 (F := Ideal) x0 x1 (ix2 n m) = rowMax (score (Xn x0 n) (Yn x1 n) m) := by
  rw [val_main_v5_apply, val_main_v4_apply, v3_at]
  show max (Ideal.ofBits .f32 0xFF800000#32) _ = _
  rw [negInf_eq]
  exact max_eq_right bot_le

/-- The row's largest score, broadcast along the row. -/
theorem v7_at (n : Fin 32) (m k : Fin 1024) :
    val_main_v7 (F := Ideal) x0 x1 (ix3 n m k) = rowMax (score (Xn x0 n) (Yn x1 n) m) := by
  rw [val_main_v7_apply, val_main_v6_apply, ← v5_at x0 x1 n m]
  exact congrArg (val_main_v5 (F := Ideal) x0 x1) (funext fun a => by match a with | ⟨0, _⟩ => rfl | ⟨1, _⟩ => rfl)

/-- The exponentials. -/
theorem v9_at (n : Fin 32) (m k : Fin 1024) :
    val_main_v9 (F := Ideal) x0 x1 (ix3 n m k) = expo (score (Xn x0 n) (Yn x1 n) m) k := by
  rw [val_main_v9_apply, val_main_v8_apply, v7_at, v2_at]
  rfl

/-- The row's sum of exponentials. -/
theorem v10_at (n : Fin 32) (m : Fin 1024) :
    val_main_v10 (F := Ideal) x0 x1 (ix2 n m) = denom (score (Xn x0 n) (Yn x1 n) m) := by
  rw [val_main_v10_apply]
  show Ideal.ofBits .f32 0x00000000#32 + _ = _
  rw [Ideal.ofBits_zero_f32, zero_add]
  unfold denom
  refine Finset.sum_congr rfl fun k _ => ?_
  rw [← v9_at x0 x1 n m k]
  exact congrArg (val_main_v9 (F := Ideal) x0 x1) (funext fun a => by match a with | ⟨0, _⟩ => rfl | ⟨1, _⟩ => rfl | ⟨2, _⟩ => rfl)

/-- The normalised exponentials. -/
theorem v13_at (n : Fin 32) (m k : Fin 1024) :
    val_main_v13 (F := Ideal) x0 x1 (ix3 n m k)
      = Ideal.div (expo (score (Xn x0 n) (Yn x1 n) m) k) (denom (score (Xn x0 n) (Yn x1 n) m)) := by
  rw [val_main_v13_apply, v9_at, val_main_v12_apply, val_main_v11_apply, ← v10_at x0 x1 n m]
  refine congrArg (FloatOps.hostDivf _) ?_
  exact congrArg (val_main_v10 (F := Ideal) x0 x1) (funext fun a => by match a with | ⟨0, _⟩ => rfl | ⟨1, _⟩ => rfl)

/-- A window's average of the normalised exponentials. -/
theorem v20_at (n : Fin 32) (m : Fin 1024) (j : Fin 1022) :
    val_main_v20 (F := Ideal) x0 x1 (ix3 n m j)
      = Ideal.div (Ideal.div (expo (score (Xn x0 n) (Yn x1 n) m) (col0 j)) (denom (score (Xn x0 n) (Yn x1 n) m))
          + Ideal.div (expo (score (Xn x0 n) (Yn x1 n) m) (col1 j)) (denom (score (Xn x0 n) (Yn x1 n) m))
          + Ideal.div (expo (score (Xn x0 n) (Yn x1 n) m) (col2 j)) (denom (score (Xn x0 n) (Yn x1 n) m)))
        (Ideal.ofBits .f32 0x40400000#32) := by
  rw [val_main_v20_apply, val_main_v19_apply, val_main_v18_apply, val_main_v16_apply, val_main_v14_apply, val_main_v15_apply,
    val_main_v17_apply]
  have e14 : idx_main_v14 (ix3 n m j) = ix3 n m (col0 j) :=
    funext fun a => by match a with | ⟨0, _⟩ => rfl | ⟨1, _⟩ => rfl | ⟨2, _⟩ => rfl
  have e15 : idx_main_v15 (ix3 n m j) = ix3 n m (col1 j) :=
    funext fun a => by match a with | ⟨0, _⟩ => rfl | ⟨1, _⟩ => rfl | ⟨2, _⟩ => rfl
  have e17 : idx_main_v17 (ix3 n m j) = ix3 n m (col2 j) :=
    funext fun a => by match a with | ⟨0, _⟩ => rfl | ⟨1, _⟩ => rfl | ⟨2, _⟩ => rfl
  rw [e14, e15, e17, v13_at, v13_at, v13_at]
  rfl

/-- The largest of the row's window averages. -/
theorem v21_at (n : Fin 32) (m : Fin 1024) :
    val_main_v21 (F := Ideal) x0 x1 (ix2 n m) = rowEach (score (Xn x0 n) (Yn x1 n) m) := by
  unfold val_main_v21
  refine (HostLastAxis.reduce_apply (n := 32) (a := 1024) (b := 1022) (FloatOps.maximumf (F := Ideal) (φ := .f32)) (val_main_v20 (F := Ideal) x0 x1)
    (val_main_cst_3 (F := Ideal)) reducesTo_S32x1024x1022_S32x1024_d2 reduces_windows h_S_ n m).trans ?_
  unfold rowEach
  exact Finset.fold_congr fun j _ => v20_at x0 x1 n m j

/-- THE REFERENCE AT AN INDEX: the mean over the rows of the largest window average. -/
theorem v24_at (n : Fin 32) :
    val_main_v24 (F := Ideal) x0 x1 (ix1 n) = batchEach (Xn x0 n) (Yn x1 n) := by
  rw [val_main_v24_apply, val_main_v23_apply, val_main_v22_apply]
  show Ideal.div (Ideal.ofBits .f32 0x00000000#32 + _) (Ideal.ofBits .f32 0x44800000#32) = _
  rw [Ideal.ofBits_zero_f32, zero_add]
  unfold batchEach
  refine congrArg (fun z => Ideal.div z (Ideal.ofBits .f32 0x44800000#32)) ?_
  refine Finset.sum_congr rfl fun m _ => ?_
  rw [← v21_at x0 x1 n m]
  exact congrArg (val_main_v21 (F := Ideal) x0 x1) (funext fun a => by match a with | ⟨0, _⟩ => rfl | ⟨1, _⟩ => rfl)

end Cert.ReferenceIdeal.RefAt

end
-- ==== Proof.Batch.lean ====
/-
  One batch of the kernel's body, as one function of the two slabs it loads.

  A grid step holds eight batches; for each the body loads the batch's [1024, 1, 128] slab of `x` and of `y`,
  forms the 1024 × 1024 matrix of scores `y · xᵀ`, subtracts each row's largest entry and exponentiates, and per
  row divides the largest sum of three neighbouring exponentials by three times the row's sum of exponentials; the
  mean of the 1024 row values is written to all 128 lanes of the batch's output row. The printed body repeats this
  text eight times; here it is stated once, in four stages, and each of the eight printed copies is shown to be it.
-/
import proofs.«160407_j87101936763000_2_alg».proof.Proof.Gen.KernelIdeal.Skeleton

noncomputable section

namespace Cert.KernelIdeal.Batch

open Cert.KernelIdeal Cert.KernelIdeal.Gen Idealize.ShloMosaic

variable {F : FTy → Type} [FloatOps F]

/-- A slab with its unit axis dropped, in the matrix unit's input format. -/
def slab (v : Vec F S1024x1x128 .f32) : FVec F S1024x128 .bf16 :=
  have w : FVec F S1024x128 .f32 := shapeCast S1024x128 v shapeCasts_S1024x1x128_S1024x128
  truncf .bf16 w bitsLt_bf16_f32

/-- The scores: row `m` of `y` against row `k` of `x`, summed over the 128 features. -/
def scores (vx vy : Vec F S1024x1x128 .f32) : FVec F S1024x1024 .f32 :=
  have z : FVec F S1024x1024 .f32 := constant S1024x1024 .f32 0x00000000#32
  matmul dot_S1024x128_S1024x128_S1024x1024_1_1_0_0_n_n none (slab vy) (slab vx) z

/-- Each score less its row's largest, exponentiated. -/
def expRows (s : FVec F S1024x1024 .f32) : FVec F S1024x1024 .f32 :=
  have mx : FVec F S1024 .f32 := multiReduction .maximumf [1] S1024 s 0xFF800000#32 reduces_S1024x1024_S1024 (.inl rfl) rfl
  have mc : FVec F S1024x1 .f32 := shapeCast S1024x1 mx shapeCasts_S1024_S1024x1
  have mb : FVec F S1024x1024 .f32 := broadcastTo S1024x1024 mc broadcasts_S1024x1_S1024x1024
  have d : FVec F S1024x1024 .f32 := subf s mb
  exp d

/-- The column of the rows' sums of exponentials. -/
def rowSums (e : FVec F S1024x1024 .f32) : FVec F S1024x1 .f32 :=
  have sm : FVec F S1024 .f32 := multiReduction .add [1] S1024 e 0x00000000#32 reduces_S1024x1024_S1024 (.inl rfl) rfl
  shapeCast S1024x1 sm shapeCasts_S1024_S1024x1

/-- The sums of the first two of three neighbouring exponentials. -/
def pairSums (e : FVec F S1024x1024 .f32) : FVec F S1024x1022 .f32 :=
  have a : FVec F S1024x1022 .f32 := extractStridedSlice S1024x1022 ![0, 0] e slices_S1024x1024_o0_0_S1024x1022
  have b : FVec F S1024x1022 .f32 := extractStridedSlice S1024x1022 ![0, 1] e slices_S1024x1024_o0_1_S1024x1022
  addf a b

/-- The largest three-term window sum of each row over three times the row's sum, from the three pieces the printed text
    may have cut the computation into. -/
def rowValsOf (e : FVec F S1024x1024 .f32) (sums : FVec F S1024x1 .f32) (pairs : FVec F S1024x1022 .f32) : FVec F S1024x1 .f32 :=
  have c : FVec F S1024x1022 .f32 := extractStridedSlice S1024x1022 ![0, 2] e slices_S1024x1024_o0_2_S1024x1022
  have p : FVec F S1024x1022 .f32 := addf pairs c
  have pm : FVec F S1024 .f32 := multiReduction .maximumf [1] S1024 p 0xFF800000#32 reduces_S1024x1022_S1024 (.inl rfl) rfl
  have pc : FVec F S1024x1 .f32 := shapeCast S1024x1 pm shapeCasts_S1024_S1024x1
  have three : F .f32 := Scalar.ofBits .f32 0x40400000#32
  have tb : FVec F S1024x1 .f32 := broadcast S1024x1 three
  have den : FVec F S1024x1 .f32 := mulf tb sums
  divf pc den

/-- The column of row values of a matrix of exponentials. -/
def rowVals (e : FVec F S1024x1024 .f32) : FVec F S1024x1 .f32 := rowValsOf e (rowSums e) (pairSums e)

/-- The mean of the 1024 row values, cast to all 128 lanes. -/
def lanesOfMean (r : FVec F S1024x1 .f32) : FVec F S128 .f32 :=
  have s1 : FVec F S1 .f32 := multiReduction .add [0] S1 r 0x00000000#32 reduces_S1024x1_S1 (.inl rfl) rfl
  have s2 : FVec F S1x1 .f32 := shapeCast S1x1 s1 shapeCasts_S1_S1x1
  have n : F .f32 := Scalar.ofBits .f32 0x44800000#32
  have nb : FVec F S1x1 .f32 := broadcast S1x1 n
  have q : FVec F S1x1 .f32 := divf s2 nb
  have q' : FVec F S1x1 .f32 := shapeCast S1x1 q shapeCasts_S1x1_S1x1
  have ql : FVec F S1x128 .f32 := broadcastTo S1x128 q' broadcasts_S1x1_S1x128
  shapeCast S128 ql shapeCasts_S1x128_S128

/-- The stored row. -/
def rowOfLanes (l : FVec F S128 .f32) : FVec F S1x1x128 .f32 := shapeCast S1x1x128 l shapeCasts_S128_S1x1x128

/-- ONE BATCH: from the two loaded slabs to the stored row. -/
def batch (vx vy : Vec F S1024x1x128 .f32) : FVec F S1x1x128 .f32 :=
  rowOfLanes (lanesOfMean (rowVals (expRows (scores vx vy))))

/-! ## The eight printed copies are this one function -/

theorem copy0 (vx vy : Vec F S1024x1x128 .f32) : k0_pay2 vx vy = batch vx vy := rfl
theorem copy1 (vx vy : Vec F S1024x1x128 .f32) : k0_pay4 (k0_pay3 vx) vy = batch vx vy := rfl
theorem copy2 (vx vy : Vec F S1024x1x128 .f32) : k0_pay7 (k0_pay5 vx vy) (k0_pay6 vx vy) = batch vx vy := rfl
theorem copy3 (vx vy : Vec F S1024x1x128 .f32) : k0_pay11 (k0_pay8 vx vy) (k0_pay9 vx vy) (k0_pay10 vx vy) = batch vx vy := rfl
theorem copy4 (vx vy : Vec F S1024x1x128 .f32) : k0_pay13 (k0_pay12 vx vy) = batch vx vy := rfl
theorem copy5 (vx vy : Vec F S1024x1x128 .f32) : k0_pay15 (k0_pay14 vx vy) = batch vx vy := rfl
theorem copy6 (vx vy : Vec F S1024x1x128 .f32) : k0_pay16 vx vy = batch vx vy := rfl
theorem copy7 (vx vy : Vec F S1024x1x128 .f32) : k0_pay1 vx vy = batch vx vy := rfl

end Cert.KernelIdeal.Batch

end
-- ==== Proof.LibMatmulT.lean ====
/-
  A matrix times a transposed matrix, read at an index.

  With the dimension numbers "contract axis 1 of the left operand against axis 1 of the right operand, no batch axis",
  the product of an [M, K] matrix `A` and an [N, K] matrix `B` is `A · Bᵀ`: its entry at `(a, b)` is
  `Σ_c A[a, c] · B[b, c]`. Stated at the ideal values for a kernel's matrix unit accumulating into zeros (only the
  sum is left) and into any accumulator (the accumulator's entry plus the sum), for arbitrary extents.
-/
import Idealize.ShloMosaic.PureOps.Ideal
import Idealize.ShloMosaic.PureOps.Ideal.Laws
import Idealize.ShloMosaic.Lib.ValueIdx

noncomputable section

namespace Idealize.ShloMosaic.MatmulT

open Idealize.ShloMosaic Idealize.ShloMosaic.ValueIdx

variable {M K N : ℕ} {φ₁ φ₂ : FTy}

/-- The left operand of `A · Bᵀ` is read at `(a, c)` and the right one at `(b, c)`, for the contraction position `c`. -/
theorem idx_apply (w : DotDims.WF ⟨2, ![M, K]⟩ ⟨2, ![N, K]⟩ ⟨2, ![M, N]⟩ [1] [1] [0] [0] [] []) (a : Fin M) (b : Fin N) (c : Fin K) :
    (⟨[1], [1], [0], [0], [], [], w⟩ : DotDims ⟨2, ![M, K]⟩ ⟨2, ![N, K]⟩ ⟨2, ![M, N]⟩).lhsIdx (ix2 a b)
        ((contrEquiv1 (⟨[1], [1], [0], [0], [], [], w⟩ : DotDims ⟨2, ![M, K]⟩ ⟨2, ![N, K]⟩ ⟨2, ![M, N]⟩) K rfl rfl).symm c) = ix2 a c
    ∧ (⟨[1], [1], [0], [0], [], [], w⟩ : DotDims ⟨2, ![M, K]⟩ ⟨2, ![N, K]⟩ ⟨2, ![M, N]⟩).rhsIdx (ix2 a b)
        ((contrEquiv1 (⟨[1], [1], [0], [0], [], [], w⟩ : DotDims ⟨2, ![M, K]⟩ ⟨2, ![N, K]⟩ ⟨2, ![M, N]⟩) K rfl rfl).symm c) = ix2 b c := by
  have c2 := contrEquiv1_symm_val
    (⟨[1], [1], [0], [0], [], [], w⟩ : DotDims ⟨2, ![M, K]⟩ ⟨2, ![N, K]⟩ ⟨2, ![M, N]⟩) K rfl rfl c
  constructor
  · funext ax; apply Fin.ext
    match ax with
    | ⟨0, _⟩ => simp [DotDims.lhsIdx]; rfl
    | ⟨1, _⟩ => simp [DotDims.lhsIdx]; exact c2
  · funext ax; apply Fin.ext
    match ax with
    | ⟨0, _⟩ => simp [DotDims.rhsIdx]; rfl
    | ⟨1, _⟩ => simp [DotDims.rhsIdx]; exact c2

/-- `A · Bᵀ` accumulated into `acc`, at `(a, b)`: the accumulator's entry plus `Σ_c A[a, c] · B[b, c]`. -/
theorem matmul_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂)
    (acc : FVec Ideal ⟨2, ![M, N]⟩ .f32) (a : Fin M) (b : Fin N) :
    FloatOps.matmul (⟨[1], [1], [0], [0], [], [], w⟩ : DotDims ⟨2, ![M, K]⟩ ⟨2, ![N, K]⟩ ⟨2, ![M, N]⟩) prec A B acc (ix2 a b)
      = acc (ix2 a b) + ∑ c : Fin K, A (ix2 a c) * B (ix2 b c) := by
  rw [Ideal.matmul_apply,
    ← Equiv.sum_comp (contrEquiv1 (⟨[1], [1], [0], [0], [], [], w⟩ : DotDims ⟨2, ![M, K]⟩ ⟨2, ![N, K]⟩ ⟨2, ![M, N]⟩) K rfl rfl).symm]
  refine congrArg (acc (ix2 a b) + ·) (Finset.sum_congr rfl fun c _ => ?_)
  rw [(idx_apply w a b c).1, (idx_apply w a b c).2]

/-- `A · Bᵀ` into the zero accumulator, at `(a, b)`: `Σ_c A[a, c] · B[b, c]`. -/
theorem matmul_zero_apply (w : DotDims.WF ⟨2, ![M, K]⟩ ⟨2, ![N, K]⟩ ⟨2, ![M, N]⟩ [1] [1] [0] [0] [] [])
    (prec : Option ContractPrecision) (A : FVec Ideal ⟨2, ![M, K]⟩ φ₁) (B : FVec Ideal ⟨2, ![N, K]⟩ φ₂) (a : Fin M) (b : Fin N) :
    FloatOps.matmul (⟨[1], [1], [0], [0], [], [], w⟩ : DotDims ⟨2, ![M, K]⟩ ⟨2, ![N, K]⟩ ⟨2, ![M, N]⟩) prec A B
        (constant ⟨2, ![M, N]⟩ .f32 0x00000000#32) (ix2 a b)
      = ∑ c : Fin K, A (ix2 a c) * B (ix2 b c) := by
  rw [matmul_apply]
  show Ideal.ofBits .f32 0x00000000#32 + _ = _
  rw [Ideal.ofBits_zero_f32, zero_add]

end Idealize.ShloMosaic.MatmulT

end
-- ==== Proof.LibKeepdims.lean ====
/-
  The column forms a sum that keeps its reduced axis goes through, read at an index.

  A row sum that keeps the reduced axis as a unit axis (`keepdims`) leaves a vector of length `a`, casts it to the
  column `[a, 1]`, and broadcasts the column across `b` lanes to `[a, b]`. Read at an index: the column at `(i, u)` is
  the vector at `i`, and the broadcast at `(i, j)` is the column at `(i, 0)`, for arbitrary extents and any element
  type. (The leading-unit-axis casts and the row broadcast `[1, b] → [a, b]` are the library's.)
-/
import Idealize.ShloMosaic.Lib.Pipeline.Value
import Idealize.ShloMosaic.Lib.ValueIdx

namespace Idealize.ShloMosaic.Keepdims

open Idealize.ShloMosaic Idealize.ShloMosaic.ValueIdx

variable {α : Type}

/-- A vector of length `a` cast to the column `[a, 1]` reads, at `(i, u)`, the vector at `i`: the two indices have
    the same row-major position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast to `[a, b]` reads, at `(i, j)`, the column's entry of row `i`: the row coordinate is
    kept (also when `a = 1`, where it can only be `0`), the unit axis is read at `0`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Idealize.ShloMosaic.Keepdims
-- ==== Proof.LibRowReduce.lean ====
/-
  A matrix reduced along one axis, read at an index, at the ideal values.

  For an `[a, b]` matrix `src`: the reduction by `max` along the columns (axis 1) is, at row `i`, the fold of `max`
  from the accumulator's value over `src (i, k)`, `k < b`; the reduction by `+` along the columns is, at row `i`,
  `Σ_k src (i, k)`; and the reduction by `+` along the rows (axis 0) is, at column `j`, `Σ_i src (i, j)`. Arbitrary
  extents and any float format. (The library states these over the reduced shape's own index `h.lift j k`; here the
  index is spelt by its two coordinates.)
-/
import Idealize.ShloMosaic.PureOps.Ideal.Laws
import Idealize.ShloMosaic.Lib.ValueIdx

noncomputable section

namespace Idealize.ShloMosaic.RowReduce

open Idealize.ShloMosaic Idealize.ShloMosaic.ValueIdx

variable {a b : ℕ} {φ : FTy}

/-- The row maxima: at row `i`, the fold of `max` over the row's entries from the accumulator's value. -/
theorem rowMax_apply (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) := by
  refine (Ideal.multiReduction_maximumf_single src acc h hφ hacc (ix1 i)).trans ?_
  refine congrArg (Finset.fold max (Ideal.ofBits φ acc) · (Finset.univ : Finset (Fin b))) (funext fun k => ?_)
  exact congrArg src (funext fun c => Fin.ext (by match c with | ⟨0, _⟩ => rfl | ⟨1, _⟩ => rfl))

/-- The row sums: at row `i`, the sum of the row's entries. -/
theorem rowSum_apply (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) := by
  refine (Ideal.multiReduction_add_single src acc h hφ hacc (ix1 i)).trans ?_
  refine Finset.sum_congr rfl fun k _ => ?_
  exact congrArg src (funext fun c => Fin.ext (by match c with | ⟨0, _⟩ => rfl | ⟨1, _⟩ => rfl))

/-- The column sums: at column `j`, the sum of the column's entries. -/
theorem colSum_apply (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (j : Fin b) :
    multiReduction .add [0] ⟨1, ![b]⟩ src acc h hφ hacc (ix1 j) = ∑ i : Fin a, src (ix2 i j) := by
  refine (Ideal.multiReduction_add_single src acc h hφ hacc (ix1 j)).trans ?_
  refine Finset.sum_congr rfl fun i _ => ?_
  exact congrArg src (funext fun c => Fin.ext (by match c with | ⟨0, _⟩ => rfl | ⟨1, _⟩ => rfl))

end Idealize.ShloMosaic.RowReduce

end
-- ==== Proof.BatchAt.lean ====
/-
  One batch of the kernel's body read at an index, at the ideal values.

  With `X m d` and `Y m d` the two loaded slabs' entries (row `m`, feature `d`): the scores are
  `Σ_d Y m d · X k d`; the exponential matrix's row `m` is `exp (score − the row's largest score)`; a row's value is
  its largest three-term window sum over three times its sum; and every lane of the stored row is the mean of the
  row values — the function `Pooled.batchOnce X Y`.
-/
import proofs.«160407_j87101936763000_2_alg».proof.Proof.Batch
import proofs.«160407_j87101936763000_2_alg».proof.Proof.Pooled
import proofs.«160407_j87101936763000_2_alg».proof.Proof.LibMatmulT
import proofs.«160407_j87101936763000_2_alg».proof.Proof.LibKeepdims
import proofs.«160407_j87101936763000_2_alg».proof.Proof.LibRowReduce
import Idealize.ShloMosaic.Lib.Pipeline.Value
import Idealize.ShloMosaic.Lib.ValueIdx

noncomputable section

namespace Cert.KernelIdeal.Batch

open Cert.KernelIdeal Cert.KernelIdeal.Gen Idealize.ShloMosaic Idealize.ShloMosaic.ValueIdx Cert.Pooled

/-- A slab's matrix entry `(m, d)` is the slab's entry `(m, 0, d)`: the two have the same row-major position. -/
theorem slab_at (v : Vec Ideal S1024x1x128 .f32) (m : Fin 1024) (d : Fin 128) :
    slab (F := Ideal) v (ix2 m d) = v (ix3 m (0 : Fin 1) d) := by
  show shapeCast S1024x128 v shapeCasts_S1024x1x128_S1024x128 (ix2 m d) = _
  refine shapeCast_apply v _ (ix2 m d) (ix3 m (0 : Fin 1) d) ?_
  rw [Shape.rowMajor_val_three, Shape.rowMajor_val_two]
  show (m.val * 1 + 0) * 128 + d.val = m.val * 128 + d.val
  omega

/-- The score of row `m` against row `k`. -/
theorem scores_at (vx vy : Vec Ideal S1024x1x128 .f32) (m k : Fin 1024) :
    scores (F := Ideal) vx vy (ix2 m k)
      = score (fun r d => vx (ix3 r (0 : Fin 1) d)) (fun r d => vy (ix3 r (0 : Fin 1) d)) m k := by
  refine (MatmulT.matmul_zero_apply (M := 1024) (K := 128) (N := 1024) dot_S1024x128_S1024x128_S1024x1024_1_1_0_0_n_n_wf none
    (slab (F := Ideal) vy) (slab (F := Ideal) vx) m k).trans ?_
  unfold score
  exact Finset.sum_congr rfl fun d _ => by rw [slab_at, slab_at]

/-- An entry of the exponential matrix: the exponential of the score less the row's largest score. -/
theorem expRows_at (s : FVec Ideal S1024x1024 .f32) (m k : Fin 1024) :
    expRows (F := Ideal) s (ix2 m k) = expo (fun k' => s (ix2 m k')) k := by
  show Ideal.exp (s (ix2 m k) - broadcastTo S1024x1024 (shapeCast S1024x1
      (multiReduction .maximumf [1] S1024 s 0xFF800000#32 reduces_S1024x1024_S1024 (.inl rfl) rfl) shapeCasts_S1024_S1024x1)
      broadcasts_S1024x1_S1024x1024 (ix2 m k)) = _
  rw [Keepdims.broadcastTo_a1_ab_apply, Keepdims.shapeCast_a_a1_apply]
  exact congrArg (fun z => Ideal.exp (s (ix2 m k) - z))
    (RowReduce.rowMax_apply (a := 1024) (b := 1024) s 0xFF800000#32 reduces_S1024x1024_S1024 (.inl rfl) rfl m)

/-- A row's value from a matrix of exponentials: the largest three-term window sum over three times the row's sum. -/
theorem rowVals_at (e : FVec Ideal S1024x1024 .f32) (m : Fin 1024) (u : Fin 1) :
    rowVals (F := Ideal) e (ix2 m u)
      = Ideal.div ((Finset.univ : Finset (Fin 1022)).fold max (Ideal.ofBits .f32 0xFF800000#32)
          (fun j => e (ix2 m (col0 j)) + e (ix2 m (col1 j)) + e (ix2 m (col2 j))))
        (Ideal.ofBits .f32 0x40400000#32 * ∑ k : Fin 1024, e (ix2 m k)) := by
  show Ideal.div (shapeCast S1024x1 (multiReduction .maximumf [1] S1024
        (addf (addf (extractStridedSlice S1024x1022 ![0, 0] e slices_S1024x1024_o0_0_S1024x1022)
          (extractStridedSlice S1024x1022 ![0, 1] e slices_S1024x1024_o0_1_S1024x1022))
          (extractStridedSlice S1024x1022 ![0, 2] e slices_S1024x1024_o0_2_S1024x1022))
        0xFF800000#32 reduces_S1024x1022_S1024 (.inl rfl) rfl) shapeCasts_S1024_S1024x1 (ix2 m u))
      (Ideal.ofBits .f32 0x40400000#32 * shapeCast S1024x1 (multiReduction .add [1] S1024 e 0x00000000#32
        reduces_S1024x1024_S1024 (.inl rfl) rfl) shapeCasts_S1024_S1024x1 (ix2 m u)) = _
  rw [Keepdims.shapeCast_a_a1_apply, Keepdims.shapeCast_a_a1_apply]
  refine (congrArg₂ Ideal.div
    (RowReduce.rowMax_apply (a := 1024) (b := 1022) _ 0xFF800000#32 reduces_S1024x1022_S1024 (.inl rfl) rfl m)
    (congrArg (Ideal.ofBits .f32 0x40400000#32 * ·)
      (RowReduce.rowSum_apply (a := 1024) (b := 1024) e 0x00000000#32 reduces_S1024x1024_S1024 (.inl rfl) rfl m))).trans ?_
  refine congrArg (Ideal.div · _) (Finset.fold_congr fun j _ => ?_)
  show extractStridedSlice S1024x1022 ![0, 0] e slices_S1024x1024_o0_0_S1024x1022 (ix2 m j)
      + extractStridedSlice S1024x1022 ![0, 1] e slices_S1024x1024_o0_1_S1024x1022 (ix2 m j)
      + extractStridedSlice S1024x1022 ![0, 2] e slices_S1024x1024_o0_2_S1024x1022 (ix2 m j) = _
  rw [extractStridedSlice_apply ![0, 0] e _ (ix2 m j) (ix2 m (col0 j)) (fun a => by
        match a with
        | ⟨0, _⟩ => show m.val = 0 + m.val; omega
        | ⟨1, _⟩ => show j.val = 0 + j.val; omega),
    extractStridedSlice_apply ![0, 1] e _ (ix2 m j) (ix2 m (col1 j)) (fun a => by
        match a with
        | ⟨0, _⟩ => show m.val = 0 + m.val; omega
        | ⟨1, _⟩ => show 1 + j.val = 1 + j.val; rfl),
    extractStridedSlice_apply ![0, 2] e _ (ix2 m j) (ix2 m (col2 j)) (fun a => by
        match a with
        | ⟨0, _⟩ => show m.val = 0 + m.val; omega
        | ⟨1, _⟩ => show 2 + j.val = 2 + j.val; rfl)]

/-- So a row's value from the exponential matrix of a matrix of scores is the row function of the row's scores. -/
theorem rowVals_expRows_at (s : FVec Ideal S1024x1024 .f32) (m : Fin 1024) (u : Fin 1) :
    rowVals (F := Ideal) (expRows (F := Ideal) s) (ix2 m u) = rowOnce (fun k => s (ix2 m k)) := by
  rw [rowVals_at]
  simp only [expRows_at]
  rfl

/-- Every lane of the mean's row: the sum of the row values over the row count. -/
theorem lanesOfMean_at (r : FVec Ideal S1024x1 .f32) (l : Fin 128) :
    lanesOfMean (F := Ideal) r (ix1 l) = Ideal.div (∑ m : Fin 1024, r (ix2 m (0 : Fin 1))) (Ideal.ofBits .f32 0x44800000#32) := by
  unfold lanesOfMean
  refine (shapeCast_apply _ shapeCasts_S1x128_S128 (ix1 l) (ix2 (0 : Fin 1) l) ?_).trans ?_
  · rw [Shape.rowMajor_val_one, Shape.rowMajor_val_two]
    show 0 * 128 + l.val = l.val
    omega
  refine (broadcastTo_apply _ broadcasts_S1x1_S1x128 (ix2 (0 : Fin 1) l) (ix2 (0 : Fin 1) (0 : Fin 1)) (fun a => by
    match a with
    | ⟨0, _⟩ => rfl
    | ⟨1, _⟩ => rfl)).trans ?_
  rw [shapeCast_self]
  show Ideal.div (shapeCast S1x1 (multiReduction .add [0] S1 r 0x00000000#32 reduces_S1024x1_S1 (.inl rfl) rfl) shapeCasts_S1_S1x1
      (ix2 (0 : Fin 1) (0 : Fin 1))) (Ideal.ofBits .f32 0x44800000#32) = _
  rw [Keepdims.shapeCast_a_a1_apply]
  exact congrArg (Ideal.div · _)
    (RowReduce.colSum_apply (a := 1024) (b := 1) r 0x00000000#32 reduces_S1024x1_S1 (.inl rfl) rfl (0 : Fin 1))

/-- The stored row at `(0, 0, l)` is lane `l`. -/
theorem rowOfLanes_at (v : FVec Ideal S128 .f32) (a b : Fin 1) (l : Fin 128) :
    rowOfLanes (F := Ideal) v (ix3 a b l) = v (ix1 l) := by
  unfold rowOfLanes
  refine shapeCast_apply v shapeCasts_S128_S1x1x128 (ix3 a b l) (ix1 l) ?_
  rw [Shape.rowMajor_val_one, Shape.rowMajor_val_three]
  have ha : a.val = 0 := by omega
  have hb : b.val = 0 := by omega
  show l.val = (a.val * 1 + b.val) * 128 + l.val
  rw [ha, hb]; omega

/-- ONE BATCH AT AN INDEX: every entry of the stored row is the batch's value, as a function of the two slabs. -/
theorem batch_at (vx vy : Vec Ideal S1024x1x128 .f32) (a b : Fin 1) (l : Fin 128) :
    batch (F := Ideal) vx vy (ix3 a b l)
      = batchOnce (fun r d => vx (ix3 r (0 : Fin 1) d)) (fun r d => vy (ix3 r (0 : Fin 1) d)) := by
  unfold batch
  rw [rowOfLanes_at, lanesOfMean_at]
  unfold batchOnce
  refine congrArg (Ideal.div · _) (Finset.sum_congr rfl fun m _ => ?_)
  rw [rowVals_expRows_at]
  exact congrArg rowOnce (funext fun k => scores_at vx vy m k)

end Cert.KernelIdeal.Batch

end
-- ==== Proof.Block.lean ====
/-
  What one grid step leaves in its [8, 1, 128] output block, as one function of the step's two [1024, 8, 128] input
  blocks: row `i` of the output block, in every lane, is the value of batch `i` of the two blocks — the body's eight
  stores are the eight rows, each computed from the slabs `x[:, i, :]` and `y[:, i, :]` it loads.
-/
import proofs.«160407_j87101936763000_2_alg».proof.Proof.Gen.KernelIdeal.Frame
import proofs.«160407_j87101936763000_2_alg».proof.Proof.BatchAt

set_option maxRecDepth 16384

noncomputable section

namespace Cert.KernelIdeal.Block

open Cert.KernelIdeal Cert.KernelIdeal.Gen Cert.KernelIdeal.Batch Idealize.ShloMosaic Idealize.ShloMosaic.ValueIdx Cert.Pooled

/-- Batch `i` of an input block, as a matrix: row `r`, feature `d`. -/
def rowsOf (x : Vec Ideal S1024x8x128 .f32) (i : Fin 8) : Fin 1024 → Fin 128 → EReal := fun r d => x (ix3 r i d)

/-- The output block as a function of the two input blocks: at `(i, 0, l)` the value of batch `i`. -/
def blockVal (x0 x1 : Vec Ideal S1024x8x128 .f32) : S8x1x128.Idx → EReal :=
  fun y => batchOnce (rowsOf x0 (y 0)) (rowsOf x1 (y 0))

/-- The slab loaded for batch `i` is batch `i` of the block. -/
theorem ld_slab (x : Vec Ideal S1024x8x128 .f32) (i : Fin 8)
    (inb : ∀ a, (![0, i.val, 0] : Fin 3 → Nat) a + S1024x1x128.size a ≤ S1024x8x128.size a) (r : Fin 1024) (d : Fin 128) :
    View.ld x (Rect.unit (s := S1024x8x128) ![0, i.val, 0] S1024x1x128.size inb) (ix3 r (0 : Fin 1) d) = x (ix3 r i d) := by
  show x ((Rect.unit (s := S1024x8x128) ![0, i.val, 0] S1024x1x128.size inb).emb (ix3 r (0 : Fin 1) d)) = _
  refine congrArg x (funext fun a => Fin.ext ?_)
  match a with
  | ⟨0, _⟩ => show 0 + 1 * r.val = r.val; omega
  | ⟨1, _⟩ => show i.val + 1 * 0 = i.val; omega
  | ⟨2, _⟩ => show 0 + 1 * d.val = d.val; omega

/-- The store of batch `i` writes the output block's function at the row it covers. -/
theorem piece_at (x0 x1 : Vec Ideal S1024x8x128 .f32) (i : Fin 8)
    (inbL : ∀ a, (![0, i.val, 0] : Fin 3 → Nat) a + S1024x1x128.size a ≤ S1024x8x128.size a)
    (inbS : ∀ a, (![i.val, 0, 0] : Fin 3 → Nat) a + S1x1x128.size a ≤ S8x1x128.size a) (y : S1x1x128.Idx) :
    batch (F := Ideal) (View.ld x0 (Rect.unit (s := S1024x8x128) ![0, i.val, 0] S1024x1x128.size inbL))
        (View.ld x1 (Rect.unit (s := S1024x8x128) ![0, i.val, 0] S1024x1x128.size inbL)) y
      = blockVal x0 x1 ((Rect.unit (s := S8x1x128) ![i.val, 0, 0] S1x1x128.size inbS).emb y) := by
  obtain ⟨a, b, l, rfl⟩ : ∃ (a : Fin 1) (b : Fin 1) (l : Fin 128), y = ix3 a b l := ⟨y 0, y 1, y 2, eq_ix3 y⟩
  rw [batch_at]
  unfold blockVal
  have e : ((Rect.unit (s := S8x1x128) ![i.val, 0, 0] S1x1x128.size inbS).emb (ix3 a b l)) 0 = i :=
    Fin.ext (by show i.val + 1 * a.val = i.val; omega)
  rw [e]
  unfold rowsOf
  exact congrArg₂ batchOnce (funext fun r => funext fun d => ld_slab x0 i inbL r d)
    (funext fun r => funext fun d => ld_slab x1 i inbL r d)

/-- THE OUTPUT BLOCK: what the body leaves in the output's staging buffer is `blockVal` of the input blocks. -/
theorem out_at (x0 x1 : Vec Ideal S1024x8x128 .f32) (y : S8x1x128.Idx) :
    out0_2 (F := Ideal) x0 x1 y = blockVal x0 x1 y := by
  unfold out0_2
  rw [copy7, copy6, copy5, copy4, copy3, copy2, copy1, copy0]
  refine View.canon_apply_of_pieces (Val := Elt Ideal) (S := S8x1x128) (e := .f32) (blockVal x0 x1) _ ?_ y (cover0_2 _ _ _ _ _ _ _ _ y)
  intro p hp x
  simp only [List.mem_cons, List.not_mem_nil, or_false] at hp
  rcases hp with rfl | rfl | rfl | rfl | rfl | rfl | rfl | rfl
  · exact piece_at x0 x1 7 inb_S1024x8x128_S1024x1x128_0_7_0 inb_S8x1x128_S1x1x128_7_0_0 x
  · exact piece_at x0 x1 6 inb_S1024x8x128_S1024x1x128_0_6_0 inb_S8x1x128_S1x1x128_6_0_0 x
  · exact piece_at x0 x1 5 inb_S1024x8x128_S1024x1x128_0_5_0 inb_S8x1x128_S1x1x128_5_0_0 x
  · exact piece_at x0 x1 4 inb_S1024x8x128_S1024x1x128_0_4_0 inb_S8x1x128_S1x1x128_4_0_0 x
  · exact piece_at x0 x1 3 inb_S1024x8x128_S1024x1x128_0_3_0 inb_S8x1x128_S1x1x128_3_0_0 x
  · exact piece_at x0 x1 2 inb_S1024x8x128_S1024x1x128_0_2_0 inb_S8x1x128_S1x1x128_2_0_0 x
  · exact piece_at x0 x1 1 inb_S1024x8x128_S1024x1x128_0_1_0 inb_S8x1x128_S1x1x128_1_0_0 x
  · exact piece_at x0 x1 0 inb_S1024x8x128_S1024x1x128_0_0_0 inb_S8x1x128_S1x1x128_0_0_0 x

end Cert.KernelIdeal.Block

end
-- ==== Proof.Whole.lean ====
/-
  From the grid steps' output blocks to the kernel's result.

  Grid step `t` takes batches `8 t … 8 t + 7` of both inputs (blocks `[1024, 8, 128]` at block index `(0, t, 0)`) and writes
  rows `8 t … 8 t + 7` of the `[32, 1, 128]` output array (block index `(t, 0, 0)`). So the four steps' blocks tile the
  output array, and the array ends holding, at `(n, 0, l)`, the value of batch `n` of the two inputs. The lines after
  the launch keep lane `0` of every row: the result at `n` is the value of batch `n`.
-/
import proofs.«160407_j87101936763000_2_alg».proof.Proof.Gen.KernelIdeal.Frame
import proofs.«160407_j87101936763000_2_alg».proof.Proof.Block
import Idealize.ShloMosaic.Lib.Pipeline.Value
import Idealize.ShloMosaic.Lib.StableHlo.Run
import Idealize.ShloMosaic.PureOps.Ideal

set_option maxRecDepth 16384

noncomputable section

namespace Cert.KernelIdeal.Whole

open Cert.KernelIdeal Cert.KernelIdeal.Gen Idealize.ShloMosaic Idealize.ShloMosaic.TcCoe Idealize.SL.Sem
open Idealize.ShloMosaic.ValueIdx Idealize.ShloMosaic.StableHlo Cert.Pooled
open Idealize.ShloMosaic.Pipeline (Dat)

variable (m : (ℓ : Loc nD τ sig) → Buf (Elt Ideal) ℓ) (ρ : Dev nD → PrngReg)

/-- The output array as a function of the two input arrays: at `(n, 0, l)` the value of batch `n`. -/
def arrVal (A0 A1 : S1024x32x128.Idx → Elt Ideal .f32) : S32x1x128.Idx → Elt Ideal .f32 :=
  fun i => batchOnce (fun r d => A0 (ix3 r (i 0) d)) (fun r d => A1 (ix3 r (i 0) d))

/-- The result as a function of the two input arrays: at `n` the value of batch `n`. -/
def outVal (A0 A1 : S1024x32x128.Idx → Elt Ideal .f32) : S32.Idx → Elt Ideal .f32 :=
  fun i => batchOnce (fun r d => A0 (ix3 r (i 0) d)) (fun r d => A1 (ix3 r (i 0) d))

/-- The printed index maps over the four grid steps: the inputs' blocks sit at `(0, t, 0)`, the output's at `(t, 0, 0)`. -/
theorem idx_facts : ∀ t : Fin cfg0.N,
    win0_0.index t (0 : Fin 3) = 0 ∧ win0_0.index t (1 : Fin 3) = win0_2.index t (0 : Fin 3) ∧ win0_0.index t (2 : Fin 3) = 0
    ∧ win0_1.index t (0 : Fin 3) = 0 ∧ win0_1.index t (1 : Fin 3) = win0_2.index t (0 : Fin 3) ∧ win0_1.index t (2 : Fin 3) = 0
    ∧ win0_2.index t (0 : Fin 3) ≤ 3 ∧ win0_2.index t (1 : Fin 3) = 0 ∧ win0_2.index t (2 : Fin 3) = 0 :=
  (by decide +kernel : ∀ t : Fin grid0.N, _)

/-- Every one of the four row blocks is some step's. -/
theorem idx_onto : ∀ q : Fin 4, ∃ t : Fin cfg0.N, win0_2.index t (0 : Fin 3) = q.val :=
  (by decide +kernel : ∀ q : Fin 4, ∃ t : Fin grid0.N, win0_2.index t (0 : Fin 3) = q.val)

/-- WHAT STEP `t` WRITES BACK is block `t` of `arrVal` of the input arrays as the launch finds them. -/
theorem flushed_eq (c : Dev nD) (t : Fin cfg0.N) :
    (dats m 0 c).flushed 2 t = ((cfg0.win 2).blk t).view.read (Elt Ideal) (arrVal (V m c main_arg0) (V m c main_arg1)) := by
  show (cfg0.win 2).cut (grid0.coords t) ((dats m 0 c).after 2 t) = _
  rw [after0_2]
  obtain ⟨e00, e01, e02, e10, e11, e12, -, -, -⟩ := idx_facts t
  funext j
  show out0_2 (iblk m c 0 t) (iblk m c 1 t) j = arrVal (V m c main_arg0) (V m c main_arg1) (((cfg0.win 2).blk t).view.emb j)
  refine (Block.out_at (iblk m c 0 t) (iblk m c 1 t) j).trans ?_
  unfold Block.blockVal arrVal Block.rowsOf
  refine congrArg₂ batchOnce (funext fun r => funext fun d => ?_) (funext fun r => funext fun d => ?_)
  · show V m c main_arg0 (((cfg0.win 0).blk t).view.emb (ix3 r (j 0) d))
        = V m c main_arg0 (ix3 r ((((cfg0.win 2).blk t).view.emb j) 0) d)
    refine congrArg (V m c main_arg0) (funext fun a => Fin.ext ?_)
    match a with
    | ⟨0, _⟩ => show win0_0.index t (0 : Fin 3) * 1024 + 1 * r.val = r.val; omega
    | ⟨1, _⟩ => show win0_0.index t (1 : Fin 3) * 8 + 1 * (j 0).val = win0_2.index t (0 : Fin 3) * 8 + 1 * (j 0).val; omega
    | ⟨2, _⟩ => show win0_0.index t (2 : Fin 3) * 128 + 1 * d.val = d.val; omega
  · show V m c main_arg1 (((cfg0.win 1).blk t).view.emb (ix3 r (j 0) d))
        = V m c main_arg1 (ix3 r ((((cfg0.win 2).blk t).view.emb j) 0) d)
    refine congrArg (V m c main_arg1) (funext fun a => Fin.ext ?_)
    match a with
    | ⟨0, _⟩ => show win0_1.index t (0 : Fin 3) * 1024 + 1 * r.val = r.val; omega
    | ⟨1, _⟩ => show win0_1.index t (1 : Fin 3) * 8 + 1 * (j 0).val = win0_2.index t (0 : Fin 3) * 8 + 1 * (j 0).val; omega
    | ⟨2, _⟩ => show win0_1.index t (2 : Fin 3) * 128 + 1 * d.val = d.val; omega

/-- An index of the output array is in step `t`'s block iff each coordinate is in the block's range on its axis. -/
theorem mem_blk (t : Fin cfg0.N) (i : S32x1x128.Idx) :
    i ∈ ((cfg0.win 2).blk t).view.set ↔ ∀ a : Fin 3, win0_2.index t a * S8x1x128.size a ≤ (i a).val
      ∧ (i a).val < win0_2.index t a * S8x1x128.size a + S8x1x128.size a := by
  show i ∈ ((View.whole main_v0).slice (win0_2.rect t)).set ↔ _
  rw [View.set_slice_whole, Rect.mem_set_unit]
  exact Iff.rfl

/-- Row `n` of the output array is in the block of step `n / 8`. -/
theorem cover (i : S32x1x128.Idx) :
    ∃ t : Fin cfg0.N, (cfg0.win 2).flush t = true ∧ i ∈ ((cfg0.win 2).blk t).view.set := by
  have hi0 : (i 0).val < 32 := (i 0).isLt
  have hi1 : (i 1).val < 1 := (i 1).isLt
  have hi2 : (i 2).val < 128 := (i 2).isLt
  obtain ⟨t, ht⟩ := idx_onto ⟨(i 0).val / 8, by omega⟩
  have ht' : win0_2.index t (0 : Fin 3) = (i 0).val / 8 := ht
  obtain ⟨-, -, -, -, -, -, -, e1, e2⟩ := idx_facts t
  refine ⟨t, flush0_2 t, ?_⟩
  rw [mem_blk]
  intro a
  match a with
  | ⟨0, _⟩ =>
    show win0_2.index t (0 : Fin 3) * 8 ≤ (i 0).val ∧ (i 0).val < win0_2.index t (0 : Fin 3) * 8 + 8
    omega
  | ⟨1, _⟩ =>
    show win0_2.index t (1 : Fin 3) * 1 ≤ (i 1).val ∧ (i 1).val < win0_2.index t (1 : Fin 3) * 1 + 1
    omega
  | ⟨2, _⟩ =>
    show win0_2.index t (2 : Fin 3) * 128 ≤ (i 2).val ∧ (i 2).val < win0_2.index t (2 : Fin 3) * 128 + 128
    omega

/-- THE OUTPUT ARRAY after the launch is `arrVal` of the input arrays. -/
theorem final (c : Dev nD) : (dats m 0 c).arrAt 2 cfg0.N = arrVal (V m c main_arg0) (V m c main_arg1) :=
  (dats m 0 c).arrAt_eq_of_cover 2 _ (fun t _ => flushed_eq m c t) cover

/-- Lane `0` of row `n`, kept by the slice and the reshape after the launch, is the array's entry `(n, 0, 0)`. -/
theorem tail_at (A : S32x1x128.Idx → Elt Ideal .f32) (n : Fin 32) :
    shapeCast S32 (extractStridedSlice S32x1x1 ![0, 0, 0] A slices_S32x1x128_S32x1x1_0_0_0) shapeCasts_S32x1x1_S32 (ix1 n)
      = A (ix3 n (0 : Fin 1) (0 : Fin 128)) := by
  refine (shapeCast_apply _ shapeCasts_S32x1x1_S32 (ix1 n) (ix3 n (0 : Fin 1) (0 : Fin 1)) ?_).trans ?_
  · rw [Shape.rowMajor_val_one, Shape.rowMajor_val_three]
    show (n.val * 1 + 0) * 1 + 0 = n.val
    omega
  · exact extractStridedSlice_apply ![0, 0, 0] A slices_S32x1x128_S32x1x1_0_0_0 (ix3 n (0 : Fin 1) (0 : Fin 1))
      (ix3 n (0 : Fin 1) (0 : Fin 128)) (fun a => by
        match a with
        | ⟨0, _⟩ => show n.val = 0 + n.val; omega
        | ⟨1, _⟩ => rfl
        | ⟨2, _⟩ => rfl)

/-- THE RESULT after the lines that follow the launch is `outVal` of the input arrays. -/
theorem tail_eq (c : Dev nD) :
    Pipeline.afterTail₀ cfgs (dats m) 0 (V0 m) [hostOps1] c main_v2
      = outVal (m ((c.tc : Thread nD τ).loc main_arg0)) (m ((c.tc : Thread nD τ).loc main_arg1)) := by
  unfold Pipeline.afterTail₀
  show StableHlo.after hostOps1 _ (Proc.devRef .tc main_v2) = _
  after_results
  have hA : Pipeline.withArrays (cfgs 0).spec c (V0 m c) (fun w => (dats m 0 c).arrAt w (cfgs 0).N) (Proc.devRef .tc main_v0)
      = arrVal (V m c main_arg0) (V m c main_arg1) :=
    (Pipeline.withArrays_arr spec0 launch0.win.arr_inj c _ _ 2).trans (final m c)
  funext i
  obtain ⟨n, rfl⟩ : ∃ n : Fin 32, i = ix1 n := ⟨i 0, eq_ix1 i⟩
  show shapeCast S32 (extractStridedSlice S32x1x1 ![0, 0, 0]
      (Pipeline.withArrays (cfgs 0).spec c (V0 m c) (fun w => (dats m 0 c).arrAt w (cfgs 0).N) (Proc.devRef .tc main_v0))
      slices_S32x1x128_S32x1x1_0_0_0) shapeCasts_S32x1x1_S32 (ix1 n) = _
  rw [hA, tail_at]
  rfl

/-- `main_v2` is no window's array: the run's post states it as the tail leaves it. -/
theorem mem_rest : main_v2 ∈ Pipeline.restRefs sig (cfgs 0).spec := by decide

/-- THE KERNEL'S RUN, read: every weakly fair execution terminates with the result at `outVal` of the arguments and the
    arguments unchanged. -/
theorem run : θ_run defs (onTc (τ := τ) (main (F := Ideal))) ⟨m, fun _ => 0, ρ⟩ fun r => ∀ c : Dev nD,
      r.2.mem ((c.tc : Thread nD τ).loc main_v2)
        = outVal (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c => ⟨((h c).2 main_v2 mem_rest).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.Whole

end
-- ==== Proof.lean ====
/-
  The certificate: the kernel's entry point against its jnp reference, on the extended reals.

  Both programs compute, for each of the 32 batches `n`, from `X m d = x (m, n, d)` and `Y m d = y (m, n, d)`: the 1024 × 1024
  scores `Σ_d Y m d · X k d`, a softmax over each row, the average of three neighbouring probabilities, each row's largest
  average, and the mean of these over the rows. The kernel keeps the exponentials un-normalised and divides each row's
  largest three-term sum once by three times the row's sum (`Pooled.batchOnce`); the reference normalises first
  (`Pooled.batchEach`). On finite inputs every score is a real, every exponential a positive real and every row sum a
  positive real, so the one division is a product with a positive real and commutes with the maximum: the two
  functions agree (`Pooled.batchOnce_eq_batchEach`). The kernel's result is read off its generated frame run
  (`Whole.run`), the reference's off its generated run and stage lemmas (`RefAt.v24_at`), and finiteness off the
  precondition (`FiniteInputs.finite_of_pre`). The ideal pass rewrote nothing, so the idealization conjunct is trivial.
-/
import proofs.«160407_j87101936763000_2_alg».proof.Defs
import proofs.«160407_j87101936763000_2_alg».proof.Proof.Gen.Kernel
import proofs.«160407_j87101936763000_2_alg».proof.Proof.Gen.Kernel.Skeleton
import proofs.«160407_j87101936763000_2_alg».proof.Proof.Gen.Kernel.Launch
import proofs.«160407_j87101936763000_2_alg».proof.Proof.Gen.Kernel.Points
import proofs.«160407_j87101936763000_2_alg».proof.Proof.Gen.Kernel.Frame
import proofs.«160407_j87101936763000_2_alg».proof.Proof.Gen.KernelIdeal
import proofs.«160407_j87101936763000_2_alg».proof.Proof.Gen.KernelIdeal.Skeleton
import proofs.«160407_j87101936763000_2_alg».proof.Proof.Gen.KernelIdeal.Launch
import proofs.«160407_j87101936763000_2_alg».proof.Proof.Gen.KernelIdeal.Points
import proofs.«160407_j87101936763000_2_alg».proof.Proof.Gen.KernelIdeal.Frame
import proofs.«160407_j87101936763000_2_alg».proof.Proof.Gen.ReferenceIdeal
import proofs.«160407_j87101936763000_2_alg».proof.Proof.Gen.Pre_finite_inputs
import proofs.«160407_j87101936763000_2_alg».proof.Proof.Gen.ReferenceIdeal.Run
import proofs.«160407_j87101936763000_2_alg».proof.Proof.Gen.ReferenceIdeal.Read
import proofs.«160407_j87101936763000_2_alg».proof.Proof.Pooled
import proofs.«160407_j87101936763000_2_alg».proof.Proof.FiniteInputs
import proofs.«160407_j87101936763000_2_alg».proof.Proof.RefAt
import proofs.«160407_j87101936763000_2_alg».proof.Proof.Whole
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level kernel runs and keeps its arguments. -/
theorem frame_kernel : Cert.frame_Kernel := fun m ρ _ => Cert.Kernel.Gen.frame m ρ

/-- The idealized kernel runs and keeps its arguments. -/
theorem frame_kernelIdeal : Cert.frame_KernelIdeal := fun m ρ _ => Cert.KernelIdeal.Gen.frame m ρ

/-- The reference runs and keeps its arguments: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From agreeing finite arguments both programs end with, at `n`, the pooled value of batch `n`: the kernel's with the
    division done once per row, the reference's with every exponential divided first, which are equal on reals. -/
theorem algebraic : Cert.algebraic_KernelIdeal_ReferenceIdeal := by
  intro m ρ m' ρ' hpre hagree
  refine ⟨fun c => Cert.KernelIdeal.Whole.outVal
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v24_eq, (hagree c).1, (hagree c).2]
  obtain ⟨h0, h1⟩ := Cert.FiniteInputs.finite_of_pre _ _ (hpre c)
  funext i
  obtain ⟨n, rfl⟩ : ∃ n : Fin 32, i = ix1 n := ⟨i 0, eq_ix1 i⟩
  rw [Cert.ReferenceIdeal.RefAt.v24_at]
  exact (Cert.Pooled.batchOnce_eq_batchEach _ _ (fun r d => h0 _) (fun r d => h1 _)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
